-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S10000x1 : Shape := ⟨2, ![10000, 1]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x12 : Shape := ⟨2, ![128, 12]⟩
abbrev S12 : Shape := ⟨1, ![12]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg8 : FVec F S128 .f32) (main_arg9 : FVec F S128x12 .f32) (main_arg10 : FVec F S12 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x12 .f32 := Host.absf main_arg9
  let main_cst_14 : FVec F S_ .f32 := constant S_ .f32 0x7F800000#32
  let main_v40 : FVec F S128x12 .f32 := broadcastInDim S128x12 ![] bcast_S_S128x12 main_cst_14
  let main_v41 : IVec S128x12 1 := cmpf .olt main_v39 main_v40
  let main_c_15 : IVec S_ 1 := constantI S_ 1 1#1
  let main_v42 : IVec S_ 1 := (fun x v => Host.reduce IntOp.andi x v reducesTo_S128x12_S_d0_1 h_S_) main_v41 main_c_15
  let main_v43 : IVec S_ 1 := andi main_v38 main_v42
  let main_v44 : FVec F S12 .f32 := Host.absf main_arg10
  let main_cst_16 : FVec F S_ .f32 := constant S_ .f32 0x7F800000#32
  let main_v45 : FVec F S12 .f32 := broadcastInDim S12 ![] bcast_S_S12 main_cst_16
  let main_v46 : IVec S12 1 := cmpf .olt main_v44 main_v45
  let main_c_17 : IVec S_ 1 := constantI S_ 1 1#1
  let main_v47 : IVec S_ 1 := (fun x v => Host.reduce IntOp.andi x v reducesTo_S12_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x128 .f32) (main_arg8 : FVec F S128 .f32) (main_arg9 : FVec F S128x12 .f32) (main_arg10 : FVec F S12 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S1x10000x128 .f32) (main_arg1 : FVec F S1x10000x10000 .f32) (main_arg2 : IVec S10000x1 1) (main_arg3 : FVec F S128x64 .f32) (main_arg4 : FVec F S64 .f32) (main_arg5 : FVec F S64x64 .f32) (main_arg6 : FVec F S64 .f32) (main_arg7 : FVec F S64x128 .f32) (main_arg8 : FVec F S128 .f32) (main_arg9 : FVec F S128x12 .f32) (main_arg10 : FVec F S12 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S1x10000x128 : Shape := ⟨3, ![1, 10000, 128]⟩
abbrev S1x10000x10000 : Shape := ⟨3, ![1, 10000, 10000]⟩
abbrev S10000x1 : Shape := ⟨2, ![10000, 1]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x12 : Shape := ⟨2, ![128, 12]⟩
abbrev S12 : Shape := ⟨1, ![12]⟩
abbrev S10000x128 : Shape := ⟨2, ![10000, 128]⟩
abbrev S10000x10000 : Shape := ⟨2, ![10000, 10000]⟩
abbrev S1x64 : Shape := ⟨2, ![1, 64]⟩
abbrev S1x128 : Shape := ⟨2, ![1, 128]⟩
abbrev S1x12 : Shape := ⟨2, ![1, 12]⟩
abbrev S10000x64 : Shape := ⟨2, ![10000, 64]⟩
abbrev S400x10000 : Shape := ⟨2, ![400, 10000]⟩
abbrev S400x64 : Shape := ⟨2, ![400, 64]⟩
abbrev S10000x12 : Shape := ⟨2, ![10000, 12]⟩
abbrev S400x1 : Shape := ⟨2, ![400, 1]⟩
abbrev S400x12 : Shape := ⟨2, ![400, 12]⟩
abbrev S400x128 : Shape := ⟨2, ![400, 128]⟩
abbrev S400 : Shape := ⟨1, ![400]⟩

abbrev nBuf : Space → Nat
  | .hbm => 21
  | .vmem => 22
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S10000x1, .i1⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x12, .f32⟩
  | .hbm, ⟨10, _⟩ => ⟨S12, .f32⟩
  | .hbm, ⟨11, _⟩ => ⟨S10000x128, .f32⟩
  | .hbm, ⟨12, _⟩ => ⟨S10000x10000, .f32⟩
  | .hbm, ⟨13, _⟩ => ⟨S10000x1, .f32⟩
  | .hbm, ⟨14, _⟩ => ⟨S1x64, .f32⟩
  | .hbm, ⟨15, _⟩ => ⟨S1x64, .f32⟩
  | .hbm, ⟨16, _⟩ => ⟨S1x128, .f32⟩
  | .hbm, ⟨17, _⟩ => ⟨S1x12, .f32⟩
  | .hbm, ⟨18, _⟩ => ⟨S10000x64, .f32⟩
  | .hbm, ⟨19, _⟩ => ⟨S10000x64, .f32⟩
  | .hbm, ⟨20, _⟩ => ⟨S10000x12, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S400x10000, .f32⟩
  | .local _ .vmem, ⟨4, _⟩ => ⟨S400x10000, .f32⟩
  | .local _ .vmem, ⟨5, _⟩ => ⟨S10000x64, .f32⟩
  | .local _ .vmem, ⟨6, _⟩ => ⟨S1x64, .f32⟩
  | .local _ .vmem, ⟨7, _⟩ => ⟨S64x64, .f32⟩
  | .local _ .vmem, ⟨8, _⟩ => ⟨S400x64, .f32⟩
  | .local _ .vmem, ⟨9, _⟩ => ⟨S400x64, .f32⟩
  | .local _ .vmem, ⟨10, _⟩ => ⟨S400x10000, .f32⟩
  | .local _ .vmem, ⟨11, _⟩ => ⟨S400x10000, .f32⟩
  | .local _ .vmem, ⟨12, _⟩ => ⟨S10000x64, .f32⟩
  | .local _ .vmem, ⟨13, _⟩ => ⟨S1x64, .f32⟩
  | .local _ .vmem, ⟨14, _⟩ => ⟨S400x1, .f32⟩
  | .local _ .vmem, ⟨15, _⟩ => ⟨S400x1, .f32⟩
  | .local _ .vmem, ⟨16, _⟩ => ⟨S64x128, .f32⟩
  | .local _ .vmem, ⟨17, _⟩ => ⟨S1x128, .f32⟩
  | .local _ .vmem, ⟨18, _⟩ => ⟨S128x12, .f32⟩
  | .local _ .vmem, ⟨19, _⟩ => ⟨S1x12, .f32⟩
  | .local _ .vmem, ⟨20, _⟩ => ⟨S400x12, .f32⟩
  | .local _ .vmem, ⟨21, _⟩ => ⟨S400x12, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x12 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x12 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x12 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S64_S1x64 : S64.ShapeCasts S1x64
  shapeCasts_S128_S1x128 : S128.ShapeCasts S1x128
  shapeCasts_S12_S1x12 : S12.ShapeCasts S1x12
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x64 : S400x1.Broadcasts S400x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x12_S128x12_0_0 : ∀ a, (![0, 0] : Fin 2 → Nat) a + S128x12.size a ≤ S128x12.size a
  h_S128x12 : 0 < S128x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S400x12 : S1x12.Broadcasts S400x12
  reduces_S400x12_S400 : S400x12.Reduces [1] S400
  shapeCasts_S400_S400x1 : S400.ShapeCasts S400x1
  broadcasts_S400x1_S400x12 : S400x1.Broadcasts S400x12
  inb_S400x12_S400x12_0_0 : ∀ a, (![0, 0] : Fin 2 → Nat) a + S400x12.size a ≤ S400x12.size a
  h_S400x12 : 0 < S400x12.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x64_S64x128_S400x128_1_0_0_1_n_n_wf : DotDims.WF S400x64 S64x128 S400x128 [1] [0] [0] [1] [] []
  dot_S400x128_S128x12_S400x12_1_0_0_1_n_n_wf : DotDims.WF S400x128 S128x12 S400x12 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x12.size a ≤ S128x12.size a
  hwx2_6 : ∀ i : grid2.Coords, EltTy.bits .f32 = 32 ∨ (Rect.block (s := S128x12) S128x12.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x12.size a ≤ S1x12.size a
  hwx2_7 : ∀ i : grid2.Coords, EltTy.bits .f32 = 32 ∨ (Rect.block (s := S1x12) S1x12.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S400x12.size a ≤ S10000x12.size a
  hwx2_8 : ∀ i : grid2.Coords, EltTy.bits .f32 = 32 ∨ (Rect.block (s := S10000x12) S400x12.size (cc2_transform_8 i) (hinb2_8 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf
def dot_S400x128_S128x12_S400x12_1_0_0_1_n_n : DotDims S400x128 S128x12 S400x12 where
  lhsContracting := [1]
  rhsContracting := [0]
  lhsNonContracting := [0]
  rhsNonContracting := [1]
  lhsBatch := []
  rhsBatch := []
  wf := dot_S400x128_S128x12_S400x12_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v7) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S128x12.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x12.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S400x12.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S10000x1 : Shape := ⟨2, ![10000, 1]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x12 : Shape := ⟨2, ![128, 12]⟩
abbrev S12 : Shape := ⟨1, ![12]⟩
abbrev S10000x128 : Shape := ⟨2, ![10000, 128]⟩
abbrev S10000x10000 : Shape := ⟨2, ![10000, 10000]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S1x128 : Shape := ⟨2, ![1, 128]⟩
abbrev S10000x12 : Shape := ⟨2, ![10000, 12]⟩
abbrev S1x12 : Shape := ⟨2, ![1, 12]⟩

abbrev nBuf : Space → Nat
  | .hbm => 61
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S10000x1, .i1⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x12, .f32⟩
  | .hbm, ⟨10, _⟩ => ⟨S12, .f32⟩
  | .hbm, ⟨11, _⟩ => ⟨S10000x128, .f32⟩
  | .hbm, ⟨12, _⟩ => ⟨S10000x10000, .f32⟩
  | .hbm, ⟨13, _⟩ => ⟨S10000x64, .f32⟩
  | .hbm, ⟨14, _⟩ => ⟨S10000x64, .f32⟩
  | .hbm, ⟨15, _⟩ => ⟨S1x64, .f32⟩
  | .hbm, ⟨16, _⟩ => ⟨S10000x64, .f32⟩
  | .hbm, ⟨17, _⟩ => ⟨S10000x64, .f32⟩
  | .hbm, ⟨18, _⟩ => ⟨S_, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S_, .f32⟩
  | .hbm, ⟨27, _⟩ => ⟨S10000x64, .f32⟩
  | .hbm, ⟨28, _⟩ => ⟨S10000x64, .f32⟩
  | .hbm, ⟨29, _⟩ => ⟨S10000, .i1⟩
  | .hbm, ⟨30, _⟩ => ⟨S10000x1, .i1⟩
  | .hbm, ⟨31, _⟩ => ⟨S_, .f32⟩
  | .hbm, ⟨32, _⟩ => ⟨S_, .f32⟩
  | .hbm, ⟨33, _⟩ => ⟨S10000x64, .i1⟩
  | .hbm, ⟨34, _⟩ => ⟨S10000x64, .f32⟩
  | .hbm, ⟨35, _⟩ => ⟨S10000x64, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S10000x12, .f32⟩
  | .hbm, ⟨44, _⟩ => ⟨S1x12, .f32⟩
  | .hbm, ⟨45, _⟩ => ⟨S10000x12, .f32⟩
  | .hbm, ⟨46, _⟩ => ⟨S10000x12, .f32⟩
  | .hbm, ⟨47, _⟩ => ⟨S_, .f32⟩
  | .hbm, ⟨48, _⟩ => ⟨S10000, .f32⟩
  | .hbm, ⟨49, _⟩ => ⟨S_, .f32⟩
  | .hbm, ⟨50, _⟩ => ⟨S10000, .f32⟩
  | .hbm, ⟨51, _⟩ => ⟨S10000, .f32⟩
  | .hbm, ⟨52, _⟩ => ⟨S10000x1, .f32⟩
  | .hbm, ⟨53, _⟩ => ⟨S10000x12, .f32⟩
  | .hbm, ⟨54, _⟩ => ⟨S10000x12, .f32⟩
  | .hbm, ⟨55, _⟩ => ⟨S10000x12, .f32⟩
  | .hbm, ⟨56, _⟩ => ⟨S_, .f32⟩
  | .hbm, ⟨57, _⟩ => ⟨S10000, .f32⟩
  | .hbm, ⟨58, _⟩ => ⟨S10000x1, .f32⟩
  | .hbm, ⟨59, _⟩ => ⟨S10000x12, .f32⟩
  | .hbm, ⟨60, _⟩ => ⟨S10000x12, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call3_cst : Ref sig .tc := ⟨.hbm, 40, rfl⟩
abbrev main_call3_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  shapeCasts_S1x10000x128_S10000x128 : S1x10000x128.ShapeCasts S10000x128
  shapeCasts_S1x10000x10000_S10000x10000 : S1x10000x10000.ShapeCasts S10000x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  shapeCasts_S10000x1_S10000 : S10000x1.ShapeCasts S10000
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S12_S1x12_1 : S12.BroadcastsInDim S1x12 (![1] : Fin 1 → Fin S1x12.rank)
  bcast_S1x12_S10000x12_0_1 : S1x12.BroadcastsInDim S10000x12 (![0, 1] : Fin 2 → Fin S10000x12.rank)
  reducesTo_S10000x12_S10000_d1 : S10000x12.ReducesTo [1] S10000
  h_S_ : 0 < S_.numel
  bcast_S_S10000 : S_.BroadcastsInDim S10000 (![] : Fin 0 → Fin S10000.rank)
  bcast_S10000x1_S10000x12_0_1 : S10000x1.BroadcastsInDim S10000x12 (![0, 1] : Fin 2 → Fin S10000x12.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  dot_S10000x128_S128x12_S10000x12_1_0_0_1_n_n_wf : DotDims.WF S10000x128 S128x12 S10000x12 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x12_S10000x12_1_0_0_1_n_n : DotDims S10000x128 S128x12 S10000x12 where
  lhsContracting := [1]
  rhsContracting := [0]
  lhsNonContracting := [0]
  rhsNonContracting := [1]
  lhsBatch := []
  rhsBatch := []
  wf := dot_S10000x128_S128x12_S10000x12_1_0_0_1_n_n_wf

class Facts : Prop extends Facts₀ where

variable [Facts]
-- ==== Proof.PassRun.lean ====
/-
  The run of the whole program with its result named.

  The program is three passes over the node rows, one after another on the same core, after seven host operations that
  only re-lay or convert the arguments. Each pass reads its operands through windows and writes its result array block
  by block; the next pass finds that array as the previous one left it. So the contents of the buffers at the four
  boundaries form a chain: the launch memory after the host operations, then after each pass the pass's result array at
  what its write-backs leave and every other buffer as it was. Every weakly fair execution ends with every buffer at the
  last link of that chain; in particular the result array holds what the third pass's write-backs leave, and the
  arguments are as launched.

  The lemmas after it walk each pass's operand arrays back along the chain: an operand no pass writes is what the host
  operations made of the arguments (a recast, or the mask read as numbers), and the middle arrays are the earlier
  passes' results.
-/
import proofs.«159026_g24206435680387_cont_sun_c4_295_2_alg».proof.Proof.Gen.KernelIdeal.Frame
import Idealize.ShloMosaic.Lib.Pipeline.Value
import Idealize.ShloMosaic.Lib.StableHlo.Run

set_option maxRecDepth 16384

noncomputable section

namespace Cert.KernelIdeal.PassRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the arguments as launched. -/
theorem run_named : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

/-! ## What the host operations make of the arguments -/

theorem V1_v0 (c : Dev nD) : (V1 m ρ c main_v0 : S10000x128.Idx → Elt F .f32)
    = shapeCast S10000x128 (m ((c.tc : Thread nD τ).loc main_arg0)) shapeCasts_S1x10000x128_S10000x128 := by
  dsimp only [V1, W1, hostOps0]; after_results; rfl

theorem V1_v1 (c : Dev nD) : (V1 m ρ c main_v1 : S10000x10000.Idx → Elt F .f32)
    = shapeCast S10000x10000 (m ((c.tc : Thread nD τ).loc main_arg1)) shapeCasts_S1x10000x10000_S10000x10000 := by
  dsimp only [V1, W1, hostOps0]; after_results; rfl

theorem V1_v2 (c : Dev nD) : (V1 m ρ c main_v2 : S10000x1.Idx → Elt F .f32)
    = uitofp .f32 (m ((c.tc : Thread nD τ).loc main_arg2)) := by
  dsimp only [V1, W1, hostOps0]; after_results

theorem V1_v3 (c : Dev nD) : (V1 m ρ c main_v3 : S1x64.Idx → Elt F .f32)
    = shapeCast S1x64 (m ((c.tc : Thread nD τ).loc main_arg4)) shapeCasts_S64_S1x64 := by
  dsimp only [V1, W1, hostOps0]; after_results; rfl

theorem V1_v4 (c : Dev nD) : (V1 m ρ c main_v4 : S1x64.Idx → Elt F .f32)
    = shapeCast S1x64 (m ((c.tc : Thread nD τ).loc main_arg6)) shapeCasts_S64_S1x64 := by
  dsimp only [V1, W1, hostOps0]; after_results; rfl

theorem V1_v5 (c : Dev nD) : (V1 m ρ c main_v5 : S1x128.Idx → Elt F .f32)
    = shapeCast S1x128 (m ((c.tc : Thread nD τ).loc main_arg8)) shapeCasts_S128_S1x128 := by
  dsimp only [V1, W1, hostOps0]; after_results; rfl

theorem V1_v6 (c : Dev nD) : (V1 m ρ c main_v6 : S1x12.Idx → Elt F .f32)
    = shapeCast S1x12 (m ((c.tc : Thread nD τ).loc main_arg10)) shapeCasts_S12_S1x12 := by
  dsimp only [V1, W1, hostOps0]; after_results; rfl

theorem V1_arg3 (c : Dev nD) : V1 m ρ c main_arg3 = m ((c.tc : Thread nD τ).loc main_arg3) := by
  dsimp only [V1, W1, hostOps0]; after_results

theorem V1_arg5 (c : Dev nD) : V1 m ρ c main_arg5 = m ((c.tc : Thread nD τ).loc main_arg5) := by
  dsimp only [V1, W1, hostOps0]; after_results

theorem V1_arg7 (c : Dev nD) : V1 m ρ c main_arg7 = m ((c.tc : Thread nD τ).loc main_arg7) := by
  dsimp only [V1, W1, hostOps0]; after_results

theorem V1_arg9 (c : Dev nD) : V1 m ρ c main_arg9 = m ((c.tc : Thread nD τ).loc main_arg9) := by
  dsimp only [V1, W1, hostOps0]; after_results

/-! ## The second pass's operands -/

theorem V2_v1 (c : Dev nD) : V2 m ρ c main_v1 = V1 m ρ c main_v1 := W2_of_ne m ρ c main_v1 (by decide)
theorem V2_v3 (c : Dev nD) : V2 m ρ c main_v3 = V1 m ρ c main_v3 := W2_of_ne m ρ c main_v3 (by decide)
theorem V2_arg5 (c : Dev nD) : V2 m ρ c main_arg5 = V1 m ρ c main_arg5 := W2_of_ne m ρ c main_arg5 (by decide)
/-- The first pass's result, as the second pass finds it. -/
theorem V2_v7 (c : Dev nD) : V2 m ρ c main_v7 = (dat0 (V1 m ρ) c).arrAt 2 cfg0.N := W2_arr m ρ c 2

/-! ## The third pass's operands -/

theorem V3_v1 (c : Dev nD) : V3 m ρ c main_v1 = V1 m ρ c main_v1 :=
  ((W3_arr m ρ c 0).trans (((dat1 (V2 m ρ) c).arrAt_in 0 rfl _).trans (A_eq1 (V2 m ρ) c 0))).trans (V2_v1 m ρ c)
theorem V3_v2 (c : Dev nD) : V3 m ρ c main_v2 = V1 m ρ c main_v2 :=
  (W3_of_ne m ρ c main_v2 (by decide)).trans (W2_of_ne m ρ c main_v2 (by decide))
theorem V3_v4 (c : Dev nD) : V3 m ρ c main_v4 = V1 m ρ c main_v4 :=
  (W3_of_ne m ρ c main_v4 (by decide)).trans (W2_of_ne m ρ c main_v4 (by decide))
theorem V3_v5 (c : Dev nD) : V3 m ρ c main_v5 = V1 m ρ c main_v5 :=
  (W3_of_ne m ρ c main_v5 (by decide)).trans (W2_of_ne m ρ c main_v5 (by decide))
theorem V3_v6 (c : Dev nD) : V3 m ρ c main_v6 = V1 m ρ c main_v6 :=
  (W3_of_ne m ρ c main_v6 (by decide)).trans (W2_of_ne m ρ c main_v6 (by decide))
theorem V3_arg7 (c : Dev nD) : V3 m ρ c main_arg7 = V1 m ρ c main_arg7 :=
  (W3_of_ne m ρ c main_arg7 (by decide)).trans (W2_of_ne m ρ c main_arg7 (by decide))
theorem V3_arg9 (c : Dev nD) : V3 m ρ c main_arg9 = V1 m ρ c main_arg9 :=
  (W3_of_ne m ρ c main_arg9 (by decide)).trans (W2_of_ne m ρ c main_arg9 (by decide))
/-- The second pass's result, as the third pass finds it. -/
theorem V3_v8 (c : Dev nD) : V3 m ρ c main_v8 = (dat1 (V2 m ρ) c).arrAt 4 cfg1.N := W3_arr m ρ c 4

/-- The result array at the last boundary is what the third pass's write-backs leave. -/
theorem result_arr (c : Dev nD) : W4 m ρ c (Proc.devRef .tc main_v9) = (dat2 (V3 m ρ) c).arrAt 8 cfg2.N := W4_arr m ρ c 8

end Cert.KernelIdeal.PassRun

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibRowLocal.lean ====
/-
  Arrays of extended reals combined row by row, in the spellings of a host program and of a vector-unit body.

  For arrays read as functions of a (row, column) index into the extended reals:

    mm x w (r, c)        = sum over k of x (r, k) * w (k, c)          -- an M x K by K x N product
    biasAdd a b (r, c)   = a (r, c) + b (0, c)                          -- a 1 x N row added to every row
    relu y (r, c)        = max (y (r, c)) 0
    rowScale y n (r, c)  = y (r, c) * n (r, 0)                          -- every row times its own factor
    rowSelect m y (r, c) = y (r, c) if the one-bit word m (r, 0) is set, else 0
    expShift l (r, c)    = exp (l (r, c) - the largest entry of row r)
    normRows e (r, c)    = e (r, c) / the sum of row r
    softmaxRows          = normRows after expShift

  Each of them is ROW-LOCAL in its first operand: row r of the result is a function of row r of that operand (and of the
  other operands whole, or of their row r). So when an array is worked on in blocks of rows, what is computed from a block
  is the block of what is computed from the whole array (RowEq and its lemmas: a statement about one row of a small array
  and one row of a large one, which composes through any chain of the combinators).

  A host program spells them with dot_general, broadcast_in_dim, maximum, select, reduce, exponential and divide; a
  vector-unit body with a matrix-unit product into a zero accumulator, vector.broadcast, arith.maximumf / mulf,
  multi_reduction, math.exp and arith.divf. Both spellings are proved equal to the combinators, for any sizes. Only
  0 + x = x, x * 1 = x and x * 0 = 0 are used of the arithmetic, all of which hold at the infinities too.
-/
import proofs.«159026_g24206435680387_cont_sun_c4_295_2_alg».proof.Proof.LibDotIx2
import proofs.«159026_g24206435680387_cont_sun_c4_295_2_alg».proof.Proof.LibBroadcastInDim
import proofs.«159026_g24206435680387_cont_sun_c4_295_2_alg».proof.Proof.LibKeepdims
import proofs.«159026_g24206435680387_cont_sun_c4_295_2_alg».proof.Proof.LibRowReduce
import Idealize.ShloMosaic.Lib.ValueLayout

noncomputable section

open scoped BigOperators

namespace Cert.RowLocal

open Idealize.ShloMosaic Idealize.ShloMosaic.ValueIdx

/-- An M x N array of extended reals. -/
abbrev Mat (M N : ℕ) : Type := FVec Ideal (⟨2, ![M, N]⟩ : Shape) .f32

/-- A vector of N extended reals. -/
abbrev Vec1 (N : ℕ) : Type := FVec Ideal (⟨1, ![N]⟩ : Shape) .f32

/-! ## The combinators -/

/-- The product of an M x K array with a K x N array. -/
def mm {M K N : ℕ} (x : Mat M K) (w : Mat K N) : Mat M N :=
  fun i => ∑ k : Fin K, x (ix2 (i 0) k) * w (ix2 k (i 1))

/-- A 1 x N row added to every row. -/
def biasAdd {M N : ℕ} (a : Mat M N) (b : Mat 1 N) : Mat M N :=
  fun i => a i + b (ix2 (0 : Fin 1) (i 1))

/-- The maximum with zero, entry by entry. -/
def relu {M N : ℕ} (y : Mat M N) : Mat M N := fun i => max (y i) 0

/-- Every row times its own factor. -/
def rowScale {M N : ℕ} (y : Mat M N) (n : Mat M 1) : Mat M N :=
  fun i => y i * n (ix2 (i 0) (0 : Fin 1))

/-- Every row kept where its one-bit word is set, zero elsewhere. -/
def rowSelect {M N : ℕ} (m : IVec (⟨2, ![M, 1]⟩ : Shape) 1) (y : Mat M N) : Mat M N :=
  fun i => Scalar.select (m (ix2 (i 0) (0 : Fin 1))) (y i) 0

/-- A vector laid out as a row. -/
def rowOf {N : ℕ} (b : Vec1 N) : Mat 1 N := fun i => b (ix1 (i 1))

/-- The largest entry of row r, from the value of the pattern acc. -/
def rowMax {M N : ℕ} (acc : BitVec 32) (l : Mat M N) (r : Fin M) : EReal :=
  max (Ideal.ofBits .f32 acc) ((Finset.univ : Finset (Fin N)).fold max (Ideal.ofBits .f32 acc) (fun j => (l (ix2 r j) : EReal)))

/-- The exponential of every entry less its row's largest. -/
def expShift {M N : ℕ} (acc : BitVec 32) (l : Mat M N) : Mat M N :=
  fun i => Ideal.exp (l i - rowMax acc l (i 0))

/-- Every entry divided by its row's sum. -/
def normRows {M N : ℕ} (e : Mat M N) : Mat M N :=
  fun i => Ideal.div (e i) (∑ j : Fin N, e (ix2 (i 0) j))

/-- The normalised exponential of every row. -/
def softmaxRows {M N : ℕ} (acc : BitVec 32) (l : Mat M N) : Mat M N := normRows (expShift acc l)

/-! ## Row-locality -/

/-- Row p of x is row P of X. -/
def RowEq {Mb M N : ℕ} (x : Mat Mb N) (X : Mat M N) (p : Fin Mb) (P : Fin M) : Prop :=
  ∀ k : Fin N, x (ix2 p k) = X (ix2 P k)

theorem RowEq.mm {Mb M K N : ℕ} {x : Mat Mb K} {X : Mat M K} {p : Fin Mb} {P : Fin M} (h : RowEq x X p P) (w : Mat K N) :
    RowEq (mm x w) (mm X w) p P := fun q => by
  show (∑ k : Fin K, x (ix2 p k) * w (ix2 k q)) = ∑ k : Fin K, X (ix2 P k) * w (ix2 k q)
  exact Finset.sum_congr rfl fun k _ => by rw [h k]

theorem RowEq.biasAdd {Mb M N : ℕ} {a : Mat Mb N} {A : Mat M N} {p : Fin Mb} {P : Fin M} (h : RowEq a A p P) (b : Mat 1 N) :
    RowEq (biasAdd a b) (biasAdd A b) p P := fun q => by
  show a (ix2 p q) + b (ix2 (0 : Fin 1) q) = A (ix2 P q) + b (ix2 (0 : Fin 1) q)
  rw [h q]

theorem RowEq.relu {Mb M N : ℕ} {y : Mat Mb N} {Y : Mat M N} {p : Fin Mb} {P : Fin M} (h : RowEq y Y p P) :
    RowEq (relu y) (relu Y) p P := fun q => by
  show max (y (ix2 p q)) 0 = max (Y (ix2 P q)) 0
  rw [h q]

theorem RowEq.rowScale {Mb M N : ℕ} {y : Mat Mb N} {Y : Mat M N} {n : Mat Mb 1} {n' : Mat M 1} {p : Fin Mb} {P : Fin M}
    (h : RowEq y Y p P) (hn : n (ix2 p (0 : Fin 1)) = n' (ix2 P (0 : Fin 1))) :
    RowEq (rowScale y n) (rowScale Y n') p P := fun q => by
  show y (ix2 p q) * n (ix2 p (0 : Fin 1)) = Y (ix2 P q) * n' (ix2 P (0 : Fin 1))
  rw [h q, hn]

theorem rowMax_congr {Mb M N : ℕ} (acc : BitVec 32) {l : Mat Mb N} {L : Mat M N} {p : Fin Mb} {P : Fin M} (h : RowEq l L p P) :
    rowMax acc l p = rowMax acc L P := by
  unfold rowMax
  rw [show (fun j : Fin N => (l (ix2 p j) : EReal)) = fun j => (L (ix2 P j) : EReal) from funext h]

theorem RowEq.expShift {Mb M N : ℕ} (acc : BitVec 32) {l : Mat Mb N} {L : Mat M N} {p : Fin Mb} {P : Fin M} (h : RowEq l L p P) :
    RowEq (expShift acc l) (expShift acc L) p P := fun q => by
  show Ideal.exp (l (ix2 p q) - rowMax acc l p) = Ideal.exp (L (ix2 P q) - rowMax acc L P)
  rw [h q, rowMax_congr acc h]

theorem RowEq.normRows {Mb M N : ℕ} {e : Mat Mb N} {E : Mat M N} {p : Fin Mb} {P : Fin M} (h : RowEq e E p P) :
    RowEq (normRows e) (normRows E) p P := fun q => by
  show Ideal.div (e (ix2 p q)) (∑ j : Fin N, e (ix2 p j)) = Ideal.div (E (ix2 P q)) (∑ j : Fin N, E (ix2 P j))
  rw [h q, show (fun j : Fin N => e (ix2 p j)) = fun j => E (ix2 P j) from funext h]

theorem RowEq.softmaxRows {Mb M N : ℕ} (acc : BitVec 32) {l : Mat Mb N} {L : Mat M N} {p : Fin Mb} {P : Fin M} (h : RowEq l L p P) :
    RowEq (softmaxRows acc l) (softmaxRows acc L) p P := (h.expShift acc).normRows

/-! ## A product whose right operand is the same array -/

/-- One entry of a combinator chain, read off a row equation. -/
theorem RowEq.apply {Mb M N : ℕ} {x : Mat Mb N} {X : Mat M N} {p : Fin Mb} {P : Fin M} (h : RowEq x X p P) (q : Fin N) :
    x (ix2 p q) = X (ix2 P q) := h q

/-! ## The mask as a factor and as a selection -/

/-- Multiplying by a one-bit word read as a number keeps the entry where the bit is set and gives zero elsewhere. -/
theorem mul_uitofp_bit (x : EReal) (b : BitVec 1) :
    x * FloatOps.uitofp (F := Ideal) .f32 b = Scalar.select b x 0 := by
  by_cases hb : b = 1#1
  · subst hb
    rw [select_one]
    show x * (((1#1 : BitVec 1).toNat : ℝ) : EReal) = x
    simp
  · have h0 := eq_zero_of_ne_one hb
    subst h0
    rw [select_zero]
    show x * (((0#1 : BitVec 1).toNat : ℝ) : EReal) = 0
    simp

/-- Scaling every row by its one-bit word read as a number is selecting the rows whose bit is set. -/
theorem rowScale_uitofp {M N : ℕ} (m : IVec (⟨2, ![M, 1]⟩ : Shape) 1) (y : Mat M N) :
    rowScale y (uitofp .f32 m) = rowSelect m y := by
  funext i
  show y i * FloatOps.uitofp (F := Ideal) .f32 (m (ix2 (i 0) (0 : Fin 1))) = _
  rw [mul_uitofp_bit]
  rfl

/-! ## The host's spelling -/

/-- The contraction is the product. -/
theorem host_mm {M K N : ℕ} {d : DotDims (⟨2, ![M, K]⟩ : Shape) (⟨2, ![K, N]⟩ : Shape) (⟨2, ![M, N]⟩ : Shape)}
    (hd : PlainDot d) (prec : Option ContractPrecision) (x : Mat M K) (w : Mat K N) :
    Host.dotGeneral d prec x w = mm x w := by
  funext i
  obtain ⟨r, c, rfl⟩ : ∃ (r : Fin M) (c : Fin N), i = ix2 r c := ⟨i 0, i 1, eq_ix2 i⟩
  simp only [Host.dotGeneral]
  rw [dotGeneral_ix2_any hd]
  rfl

/-- Adding the bias vector, laid out as a row and broadcast down the rows. -/
theorem host_biasAdd {M N : ℕ} (a : Mat M N) (b : Vec1 N)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) :
    addf a (broadcastInDim (⟨2, ![M, N]⟩ : Shape) ![0, 1] h2 (broadcastInDim (⟨2, ![1, N]⟩ : Shape) ![1] h1 b))
      = biasAdd a (rowOf b) := by
  funext i
  obtain ⟨r, c, rfl⟩ : ∃ (r : Fin M) (c : Fin N), i = ix2 r c := ⟨i 0, i 1, eq_ix2 i⟩
  rw [addf_apply, broadcastInDim_row_mat_apply, broadcastInDim_vec_row_apply]
  rfl

/-- The maximum with the broadcast zero scalar. -/
theorem host_relu {M N : ℕ} (y : Mat M N) (h0 : (⟨0, ![]⟩ : Shape).BroadcastsInDim (⟨2, ![M, N]⟩ : Shape) ![]) :
    maximumf y (broadcastInDim (⟨2, ![M, N]⟩ : Shape) ![] h0 (constant (F := Ideal) (⟨0, ![]⟩ : Shape) .f32 0x00000000#32))
      = relu y := by
  funext i
  rw [maximumf_apply, broadcastInDim_scalar_apply, constant_apply, Ideal.ofBits_zero_f32]
  rfl

/-- Selecting against the broadcast zero scalar by the mask column (recast as a vector and laid out as a column again)
    broadcast across the columns. -/
theorem host_rowSelect {M N : ℕ} (m : IVec (⟨2, ![M, 1]⟩ : Shape) 1) (y : Mat M N)
    (hc : (⟨2, ![M, 1]⟩ : Shape).ShapeCasts (⟨1, ![M]⟩ : Shape))
    (h1 : (⟨1, ![M]⟩ : Shape).BroadcastsInDim (⟨2, ![M, 1]⟩ : Shape) ![0])
    (h2 : (⟨2, ![M, 1]⟩ : Shape).BroadcastsInDim (⟨2, ![M, N]⟩ : Shape) ![0, 1])
    (h0 : (⟨0, ![]⟩ : Shape).BroadcastsInDim (⟨2, ![M, N]⟩ : Shape) ![]) :
    select (broadcastInDim (⟨2, ![M, N]⟩ : Shape) ![0, 1] h2 (broadcastInDim (⟨2, ![M, 1]⟩ : Shape) ![0] h1 (shapeCast (⟨1, ![M]⟩ : Shape) m hc)))
        y (broadcastInDim (⟨2, ![M, N]⟩ : Shape) ![] h0 (id (constant (F := Ideal) (⟨0, ![]⟩ : Shape) .f32 0x00000000#32)))
      = rowSelect m y := by
  funext i
  obtain ⟨r, c, rfl⟩ : ∃ (r : Fin M) (c : Fin N), i = ix2 r c := ⟨i 0, i 1, eq_ix2 i⟩
  rw [select_apply, broadcastInDim_col_mat_apply, broadcastInDim_vec_col_apply, broadcastInDim_scalar_apply]
  have e : shapeCast (⟨1, ![M]⟩ : Shape) m hc (ix1 r) = m (ix2 r (0 : Fin 1)) :=
    shapeCast_apply m hc _ _ (by
      rw [Shape.rowMajor_val_two, Shape.rowMajor_val_one]
      show r.val * 1 + 0 = r.val
      omega)
  rw [e]
  show Scalar.select (m (ix2 r (0 : Fin 1))) (y (ix2 r c)) (Ideal.ofBits .f32 0x00000000#32) = _
  rw [Ideal.ofBits_zero_f32]
  rfl

/-- The exponential of every entry less its row's largest, the largest taken by a reduce from the pattern acc and once
    more against the broadcast pattern, laid out as a column and broadcast across the columns. -/
theorem host_expShift {M N : ℕ} (acc : BitVec 32) (l : Mat M N)
    (h' : (⟨2, ![M, N]⟩ : Shape).ReducesTo [1] (⟨1, ![M]⟩ : Shape))
    (h : (⟨2, ![M, N]⟩ : Shape).Reduces [1] (⟨1, ![M]⟩ : Shape)) (hu : 0 < (⟨0, ![]⟩ : Shape).numel)
    (hs : (⟨0, ![]⟩ : Shape).BroadcastsInDim (⟨1, ![M]⟩ : Shape) ![])
    (h1 : (⟨1, ![M]⟩ : Shape).BroadcastsInDim (⟨2, ![M, 1]⟩ : Shape) ![0])
    (h2 : (⟨2, ![M, 1]⟩ : Shape).BroadcastsInDim (⟨2, ![M, N]⟩ : Shape) ![0, 1]) :
    Host.exp (subf l (broadcastInDim (⟨2, ![M, N]⟩ : Shape) ![0, 1] h2 (broadcastInDim (⟨2, ![M, 1]⟩ : Shape) ![0] h1
        (maximumf (broadcastInDim (⟨1, ![M]⟩ : Shape) ![] hs (constant (F := Ideal) (⟨0, ![]⟩ : Shape) .f32 acc))
          (Host.reduce FloatOps.maximumf l (constant (F := Ideal) (⟨0, ![]⟩ : Shape) .f32 acc) h' hu)))))
      = expShift acc l := by
  funext i
  obtain ⟨r, c, rfl⟩ : ∃ (r : Fin M) (c : Fin N), i = ix2 r c := ⟨i 0, i 1, eq_ix2 i⟩
  show FloatOps.hostUnary .exp (subf l _ (ix2 r c)) = _
  rw [Ideal.hostUnary_exp_def, subf_apply, broadcastInDim_col_mat_apply, broadcastInDim_vec_col_apply, maximumf_apply,
    broadcastInDim_scalar_apply, constant_apply, hostReduce_max_row h' h l _ hu r, constant_apply]
  rfl

/-- Every entry divided by its row's sum, the sum taken by a reduce from the zero scalar, laid out as a column and
    broadcast across the columns. -/
theorem host_normRows {M N : ℕ} (e : Mat M N)
    (h' : (⟨2, ![M, N]⟩ : Shape).ReducesTo [1] (⟨1, ![M]⟩ : Shape))
    (h : (⟨2, ![M, N]⟩ : Shape).Reduces [1] (⟨1, ![M]⟩ : Shape)) (hu : 0 < (⟨0, ![]⟩ : Shape).numel)
    (h1 : (⟨1, ![M]⟩ : Shape).BroadcastsInDim (⟨2, ![M, 1]⟩ : Shape) ![0])
    (h2 : (⟨2, ![M, 1]⟩ : Shape).BroadcastsInDim (⟨2, ![M, N]⟩ : Shape) ![0, 1]) :
    Host.divf e (broadcastInDim (⟨2, ![M, N]⟩ : Shape) ![0, 1] h2 (broadcastInDim (⟨2, ![M, 1]⟩ : Shape) ![0] h1
        (Host.reduceAdd e (constant (F := Ideal) (⟨0, ![]⟩ : Shape) .f32 0x00000000#32) h' hu)))
      = normRows e := by
  funext i
  obtain ⟨r, c, rfl⟩ : ∃ (r : Fin M) (c : Fin N), i = ix2 r c := ⟨i 0, i 1, eq_ix2 i⟩
  show FloatOps.hostDivf (e (ix2 r c)) _ = _
  rw [Ideal.hostDivf_def, broadcastInDim_col_mat_apply, broadcastInDim_vec_col_apply]
  simp only [Host.reduceAdd, Ideal.hostReduceAdd_def]
  rw [hostReduceAdd_row h' h, constant_apply, Ideal.ofBits_zero_f32, zero_add]
  rfl

/-! ## The vector unit's spelling -/

/-- The matrix-unit product into the zero accumulator is the product. -/
theorem unit_mm {M K N : ℕ} {d : DotDims (⟨2, ![M, K]⟩ : Shape) (⟨2, ![K, N]⟩ : Shape) (⟨2, ![M, N]⟩ : Shape)}
    (hd : PlainDot d) (prec : Option ContractPrecision) (x : Mat M K) (w : Mat K N) :
    matmul d prec x w (constant (⟨2, ![M, N]⟩ : Shape) .f32 0x00000000#32) = mm x w := by
  funext i
  obtain ⟨r, c, rfl⟩ : ∃ (r : Fin M) (c : Fin N), i = ix2 r c := ⟨i 0, i 1, eq_ix2 i⟩
  show FloatOps.matmul d prec x w (constant (⟨2, ![M, N]⟩ : Shape) .f32 0x00000000#32) (ix2 r c) = _
  rw [matmul_zero_ix2_any hd]
  rfl

/-- Adding the row broadcast down the rows. -/
theorem unit_biasAdd {M N : ℕ} (a : Mat M N) (b : Mat 1 N) (hb : (⟨2, ![1, N]⟩ : Shape).Broadcasts (⟨2, ![M, N]⟩ : Shape)) :
    addf a (broadcastTo (⟨2, ![M, N]⟩ : Shape) b hb) = biasAdd a b := by
  funext i
  obtain ⟨r, c, rfl⟩ : ∃ (r : Fin M) (c : Fin N), i = ix2 r c := ⟨i 0, i 1, eq_ix2 i⟩
  rw [addf_apply, broadcastTo_1b_ab_apply]
  rfl

/-- The maximum with a splat zero. -/
theorem unit_relu {M N : ℕ} (y : Mat M N) :
    maximumf y (broadcast (⟨2, ![M, N]⟩ : Shape) (Scalar.ofBits (F := Ideal) .f32 0x00000000#32)) = relu y := by
  funext i
  rw [maximumf_apply, broadcast_apply]
  show max (y i) (Ideal.ofBits .f32 0x00000000#32) = _
  rw [Ideal.ofBits_zero_f32]
  rfl

/-- The product with the column broadcast across the columns. -/
theorem unit_rowScale {M N : ℕ} (y : Mat M N) (n : Mat M 1) (h : (⟨2, ![M, 1]⟩ : Shape).Broadcasts (⟨2, ![M, N]⟩ : Shape)) :
    mulf y (broadcastTo (⟨2, ![M, N]⟩ : Shape) n h) = rowScale y n := by
  funext i
  obtain ⟨r, c, rfl⟩ : ∃ (r : Fin M) (c : Fin N), i = ix2 r c := ⟨i 0, i 1, eq_ix2 i⟩
  rw [mulf_apply, broadcastTo_a1_ab_apply]
  rfl

/-- The exponential of every entry less its row's largest, the largest taken by a lane maximum from minus infinity and
    once more against the splat minus infinity, recast as a column and broadcast across the columns. (The side condition
    on the accumulator is taken in the form a printed body carries it: the pattern equal to itself.) -/
theorem unit_expShift {M N : ℕ} (l : Mat M N)
    (h : (⟨2, ![M, N]⟩ : Shape).Reduces [1] (⟨1, ![M]⟩ : Shape)) (hφ : FKind.Formats .f32)
    (hacc : (0xFF800000#32 : BitVec 32) = 0xFF800000#32)
    (hc : (⟨1, ![M]⟩ : Shape).ShapeCasts (⟨2, ![M, 1]⟩ : Shape))
    (hb : (⟨2, ![M, 1]⟩ : Shape).Broadcasts (⟨2, ![M, N]⟩ : Shape)) :
    exp (subf l (broadcastTo (⟨2, ![M, N]⟩ : Shape) (shapeCast (⟨2, ![M, 1]⟩ : Shape)
        (maximumf (broadcast (⟨1, ![M]⟩ : Shape) (Scalar.ofBits (F := Ideal) .f32 0xFF800000#32))
          (multiReduction .maximumf [1] (⟨1, ![M]⟩ : Shape) l 0xFF800000#32 h hφ hacc)) hc) hb))
      = expShift 0xFF800000#32 l := by
  funext i
  obtain ⟨r, c, rfl⟩ : ∃ (r : Fin M) (c : Fin N), i = ix2 r c := ⟨i 0, i 1, eq_ix2 i⟩
  show FloatOps.exp (subf l _ (ix2 r c)) = _
  rw [Ideal.exp_def, subf_apply, broadcastTo_a1_ab_apply, shapeCast_a_a1_apply, maximumf_apply, broadcast_apply]
  refine congrArg (fun z => Ideal.exp (l (ix2 r c) - max (Ideal.ofBits .f32 0xFF800000#32) z)) ?_
  exact multiReduction_max_row l 0xFF800000#32 h hφ hacc r

/-- Every entry divided by its row's sum, the sum taken by a lane sum from zero, recast as a column and broadcast across
    the columns. (The side condition on the accumulator in the form a printed body carries it.) -/
theorem unit_normRows {M N : ℕ} (e : Mat M N)
    (h : (⟨2, ![M, N]⟩ : Shape).Reduces [1] (⟨1, ![M]⟩ : Shape)) (hφ : FKind.Formats .f32)
    (hacc : (0x00000000#32 : BitVec 32) = 0x00000000#32)
    (hc : (⟨1, ![M]⟩ : Shape).ShapeCasts (⟨2, ![M, 1]⟩ : Shape))
    (hb : (⟨2, ![M, 1]⟩ : Shape).Broadcasts (⟨2, ![M, N]⟩ : Shape)) :
    divf e (broadcastTo (⟨2, ![M, N]⟩ : Shape) (shapeCast (⟨2, ![M, 1]⟩ : Shape)
        (multiReduction .add [1] (⟨1, ![M]⟩ : Shape) e 0x00000000#32 h hφ hacc) hc) hb)
      = normRows e := by
  funext i
  obtain ⟨r, c, rfl⟩ : ∃ (r : Fin M) (c : Fin N), i = ix2 r c := ⟨i 0, i 1, eq_ix2 i⟩
  rw [divf_apply, broadcastTo_a1_ab_apply, shapeCast_a_a1_apply]
  refine congrArg (fun z => Ideal.div (e (ix2 r c)) z) ?_
  exact multiReduction_add_row e 0x00000000#32 h hφ hacc r

/-- A bias vector recast as a row is the vector laid out as a row. -/
theorem shapeCast_rowOf {N : ℕ} (b : Vec1 N) (hc : (⟨1, ![N]⟩ : Shape).ShapeCasts (⟨2, ![1, N]⟩ : Shape)) :
    shapeCast (⟨2, ![1, N]⟩ : Shape) b hc = rowOf b := by
  funext i
  obtain ⟨u, c, rfl⟩ : ∃ (u : Fin 1) (c : Fin N), i = ix2 u c := ⟨i 0, i 1, eq_ix2 i⟩
  rw [shapeCast_a_1a_apply]
  rfl

end Cert.RowLocal

end
-- ==== Proof.PassSpec.lean ====
/-
  The three passes of the network as functions of whole arrays.

  With X the node features, A the dense adjacency, and the layers' weights and bias rows:

    pass1 X W1                  = X W1
    pass2 A u b W               = relu (A u + b) W
    pass3 A u b n Wd bd Wo bo   = softmax over each row of  relu ((relu (A u + b) scaled row by row by n) Wd + bd) Wo + bo

  and the network is pass3 A (pass2 A (pass1 X W1) b1 W2) b2 n Wd bd Wo bo. Each pass is row-local in A (and pass3 in
  the column n of row factors): row r of the result needs row r of A only. That is what lets a pass run over A in blocks
  of rows. With n the mask read as numbers, scaling a row by 1 or 0 keeps it or clears it, so the network is netOut, in
  which the rows are selected by the mask instead.
-/
import proofs.«159026_g24206435680387_cont_sun_c4_295_2_alg».proof.Proof.LibRowLocal

noncomputable section

namespace Cert.GcnPasses

open Idealize.ShloMosaic Idealize.ShloMosaic.ValueIdx Cert.RowLocal

/-- The feature transform of the first layer. -/
def pass1 {M K N : ℕ} (X : Mat M K) (W : Mat K N) : Mat M N := mm X W

/-- A neighbour sum, its bias and relu, then the next layer's feature transform. -/
def pass2 {Mb M K N : ℕ} (A : Mat Mb M) (u : Mat M K) (b : Mat 1 K) (W : Mat K N) : Mat Mb N :=
  mm (relu (biasAdd (mm A u) b)) W

/-- A neighbour sum, its bias and relu, the rows scaled, the dense relu layer, the output layer and the row softmax. -/
def pass3 {Mb M K D C : ℕ} (A : Mat Mb M) (u : Mat M K) (b : Mat 1 K) (n : Mat Mb 1) (Wd : Mat K D) (bd : Mat 1 D)
    (Wo : Mat D C) (bo : Mat 1 C) : Mat Mb C :=
  softmaxRows 0xFF800000#32 (biasAdd (mm (relu (biasAdd (mm (rowScale (relu (biasAdd (mm A u) b)) n) Wd) bd)) Wo) bo)

/-- The whole network, the rows selected by the mask. -/
def netOut {Nn D H1 H2 Dd C : ℕ} (X : Mat Nn D) (A : Mat Nn Nn) (mask : IVec (⟨2, ![Nn, 1]⟩ : Shape) 1)
    (W1 : Mat D H1) (b1 : Vec1 H1) (W2 : Mat H1 H2) (b2 : Vec1 H2) (Wd : Mat H2 Dd) (bd : Vec1 Dd) (Wo : Mat Dd C) (bo : Vec1 C) :
    Mat Nn C :=
  softmaxRows 0xFF800000#32 (biasAdd (mm (relu (biasAdd (mm (rowSelect mask
    (relu (biasAdd (mm A (mm (relu (biasAdd (mm A (mm X W1)) (rowOf b1))) W2)) (rowOf b2)))) Wd) (rowOf bd))) Wo) (rowOf bo))

/-- Row p of a block's second pass is row P of the whole array's, when row p of the block of A is row P of A. -/
theorem pass2_rows {Mb M' M K N : ℕ} {x : Mat Mb M} {A : Mat M' M} {p : Fin Mb} {P : Fin M'} (h : RowEq x A p P)
    (u : Mat M K) (b : Mat 1 K) (W : Mat K N) : RowEq (pass2 x u b W) (pass2 A u b W) p P :=
  ((h.mm u).biasAdd b).relu.mm W

/-- The same for the third pass, the block's row factor being the whole column's at that row. -/
theorem pass3_rows {Mb M' M K D C : ℕ} {x : Mat Mb M} {A : Mat M' M} {n : Mat Mb 1} {n' : Mat M' 1} {p : Fin Mb} {P : Fin M'}
    (h : RowEq x A p P) (hn : n (ix2 p (0 : Fin 1)) = n' (ix2 P (0 : Fin 1)))
    (u : Mat M K) (b : Mat 1 K) (Wd : Mat K D) (bd : Mat 1 D) (Wo : Mat D C) (bo : Mat 1 C) :
    RowEq (pass3 x u b n Wd bd Wo bo) (pass3 A u b n' Wd bd Wo bo) p P :=
  (((((((h.mm u).biasAdd b).relu.rowScale hn).mm Wd).biasAdd bd).relu.mm Wo).biasAdd bo).softmaxRows 0xFF800000#32

/-- The three passes chained, the row factors the mask read as numbers, are the network. -/
theorem passes_eq_netOut {Nn D H1 H2 Dd C : ℕ} (X : Mat Nn D) (A : Mat Nn Nn) (mask : IVec (⟨2, ![Nn, 1]⟩ : Shape) 1)
    (W1 : Mat D H1) (b1 : Vec1 H1) (W2 : Mat H1 H2) (b2 : Vec1 H2) (Wd : Mat H2 Dd) (bd : Vec1 Dd) (Wo : Mat Dd C) (bo : Vec1 C) :
    pass3 A (pass2 A (pass1 X W1) (rowOf b1) W2) (rowOf b2) (uitofp .f32 mask) Wd (rowOf bd) Wo (rowOf bo)
      = netOut X A mask W1 b1 W2 b2 Wd bd Wo bo := by
  unfold pass3 pass2 pass1 netOut
  rw [rowScale_uitofp]

end Cert.GcnPasses

end
-- ==== Proof.Passes.lean ====
/-
  Each pass's result array as one function of the arrays the pass finds.

  A pass runs its body once per block of 400 node rows (the first pass once, on all rows). At a point the body loads
  the point's block of each operand — 400 rows of the adjacency, all of the small operands — and stores one block of
  the result. The body's arithmetic on the loaded blocks is the pass function of those blocks (the payload lemmas: the
  matrix-unit products into zero accumulators are the products, the broadcasts of bias rows and of the mask column the
  row operations, the lane maximum and lane sum the row softmax). A pass function is row-local in the adjacency, and row
  p of the point's adjacency block is row 400 t + p of the adjacency, so what point t writes back is block t of the
  pass function of the WHOLE arrays. The 25 blocks tile the result array, so after the pass the array holds that
  function.
-/
import proofs.«159026_g24206435680387_cont_sun_c4_295_2_alg».proof.Proof.Gen.KernelIdeal.Frame
import proofs.«159026_g24206435680387_cont_sun_c4_295_2_alg».proof.Proof.PassSpec
import Idealize.ShloMosaic.Lib.Pipeline.Value

set_option maxRecDepth 16384

noncomputable section

namespace Cert.KernelIdeal.Passes

open Cert.KernelIdeal Cert.KernelIdeal.Gen Idealize.ShloMosaic Idealize.ShloMosaic.TcCoe Idealize.SL.Sem
open Idealize.ShloMosaic.Pipeline (Dat)
open Idealize.ShloMosaic.ValueIdx Cert.RowLocal Cert.GcnPasses

theorem hz2 : (![0, 0] : Fin 2 → Nat) = fun _ => 0 := funext fun a => by fin_cases a <;> rfl

/-! ## The five products' dimension numbers are those of plain products -/

theorem pd_xw1 : PlainDot (M := 10000) (K := 128) (N := 64) dot_S10000x128_S128x64_S10000x64_1_0_0_1_n_n where
  rank := rfl
  size := rfl
  l0 := fun j q => by
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  l1 := fun j q => dot_S10000x128_S128x64_S10000x64_1_0_0_1_n_n.lhsIdx_val_of_single rfl j q
  r0 := fun j q => dot_S10000x128_S128x64_S10000x64_1_0_0_1_n_n.rhsIdx_val_of_single rfl j q
  r1 := fun j q => by
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

theorem pd_au : PlainDot (M := 400) (K := 10000) (N := 64) dot_S400x10000_S10000x64_S400x64_1_0_0_1_n_n where
  rank := rfl
  size := rfl
  l0 := fun j q => by
    unfold DotDims.lhsIdx
    rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
    rfl
  l1 := fun j q => dot_S400x10000_S10000x64_S400x64_1_0_0_1_n_n.lhsIdx_val_of_single rfl j q
  r0 := fun j q => dot_S400x10000_S10000x64_S400x64_1_0_0_1_n_n.rhsIdx_val_of_single rfl j q
  r1 := fun j q => by
    unfold DotDims.rhsIdx
    rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
    rfl

theorem pd_w2 : PlainDot (M := 400) (K := 64) (N := 64) dot_S400x64_S64x64_S400x64_1_0_0_1_n_n where
  rank := rfl
  size := rfl
  l0 := fun j q => by
    unfold DotDims.lhsIdx
    rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
    rfl
  l1 := fun j q => dot_S400x64_S64x64_S400x64_1_0_0_1_n_n.lhsIdx_val_of_single rfl j q
  r0 := fun j q => dot_S400x64_S64x64_S400x64_1_0_0_1_n_n.rhsIdx_val_of_single rfl j q
  r1 := fun j q => by
    unfold DotDims.rhsIdx
    rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
    rfl

theorem pd_wd : PlainDot (M := 400) (K := 64) (N := 128) dot_S400x64_S64x128_S400x128_1_0_0_1_n_n where
  rank := rfl
  size := rfl
  l0 := fun j q => by
    unfold DotDims.lhsIdx
    rw [dif_neg (show ¬(0 : Fin S400x64.rank) ∈ dot_S400x64_S64x128_S400x128_1_0_0_1_n_n.lhsBatch by decide), dif_pos (show (0 : Fin S400x64.rank) ∈ dot_S400x64_S64x128_S400x128_1_0_0_1_n_n.lhsNonContracting by decide)]
    rfl
  l1 := fun j q => dot_S400x64_S64x128_S400x128_1_0_0_1_n_n.lhsIdx_val_of_single rfl j q
  r0 := fun j q => dot_S400x64_S64x128_S400x128_1_0_0_1_n_n.rhsIdx_val_of_single rfl j q
  r1 := fun j q => by
    unfold DotDims.rhsIdx
    rw [dif_neg (show ¬(1 : Fin S64x128.rank) ∈ dot_S400x64_S64x128_S400x128_1_0_0_1_n_n.rhsBatch by decide), dif_pos (show (1 : Fin S64x128.rank) ∈ dot_S400x64_S64x128_S400x128_1_0_0_1_n_n.rhsNonContracting by decide)]
    rfl

theorem pd_wo : PlainDot (M := 400) (K := 128) (N := 12) dot_S400x128_S128x12_S400x12_1_0_0_1_n_n where
  rank := rfl
  size := rfl
  l0 := fun j q => by
    unfold DotDims.lhsIdx
    rw [dif_neg (show ¬(0 : Fin S400x128.rank) ∈ dot_S400x128_S128x12_S400x12_1_0_0_1_n_n.lhsBatch by decide), dif_pos (show (0 : Fin S400x128.rank) ∈ dot_S400x128_S128x12_S400x12_1_0_0_1_n_n.lhsNonContracting by decide)]
    rfl
  l1 := fun j q => dot_S400x128_S128x12_S400x12_1_0_0_1_n_n.lhsIdx_val_of_single rfl j q
  r0 := fun j q => dot_S400x128_S128x12_S400x12_1_0_0_1_n_n.rhsIdx_val_of_single rfl j q
  r1 := fun j q => by
    unfold DotDims.rhsIdx
    rw [dif_neg (show ¬(1 : Fin S128x12.rank) ∈ dot_S400x128_S128x12_S400x12_1_0_0_1_n_n.rhsBatch by decide), dif_pos (show (1 : Fin S128x12.rank) ∈ dot_S400x128_S128x12_S400x12_1_0_0_1_n_n.rhsNonContracting by decide)]
    rfl

/-! ## The bodies' arithmetic -/

/-- The first body's store is the product of its loaded blocks. -/
theorem pay_pass1 (x0 : Mat 10000 128) (x1 : Mat 128 64) : k0_pay1 (F := Ideal) x0 x1 = pass1 x0 x1 := by
  unfold k0_pay1 pass1
  dsimp only
  rw [shapeCast_self, unit_mm pd_xw1 none]

/-- The second body's store is the second pass of its loaded blocks. -/
theorem pay_pass2 (x0 : Mat 400 10000) (x1 : Mat 10000 64) (x2 : Mat 1 64) (x3 : Mat 64 64) :
    k1_pay1 (F := Ideal) x0 x1 x2 x3 = pass2 x0 x1 x2 x3 := by
  unfold k1_pay1 pass2
  dsimp only
  rw [shapeCast_self, shapeCast_self, shapeCast_self, unit_mm pd_au none, unit_biasAdd, unit_relu, unit_mm pd_w2 none]

/-- The third body's store is the third pass of its loaded blocks. -/
theorem pay_pass3 (x0 : Mat 400 10000) (x1 : Mat 10000 64) (x2 : Mat 1 64) (x3 : Mat 400 1) (x4 : Mat 64 128) (x5 : Mat 1 128)
    (x6 : Mat 128 12) (x7 : Mat 1 12) :
    k2_pay1 (F := Ideal) (k2_pay2 (F := Ideal) x0 x1 x2 x3 x4 x5 x6 x7) = pass3 x0 x1 x2 x3 x4 x5 x6 x7 := by
  unfold k2_pay1 k2_pay2 pass3 softmaxRows
  dsimp only
  rw [shapeCast_self, shapeCast_self, shapeCast_self, shapeCast_self, shapeCast_self, shapeCast_self,
    unit_mm pd_au none, unit_biasAdd, unit_relu, unit_rowScale, unit_mm pd_wd none, unit_biasAdd, unit_relu,
    unit_mm pd_wo none, unit_biasAdd, unit_expShift, unit_normRows]

variable (V : (c : Dev nD) → (b : Ref sig .tc) → Buf (Elt Ideal) ((c : Thread nD τ).loc b))

/-! ## The first pass: one point, every window the whole array -/

/-- Every window of the first pass sits at block index zero. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is the product of the whole arrays, read through the result window's block. -/
theorem flushed0_eq (c : Dev nD) (t : Fin cfg0.N) :
    (dat0 V c).flushed 2 t = ((cfg0.win 2).blk t).view.read (Elt Ideal) (pass1 (V c main_v0) (V c main_arg3)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  rw [pay_pass1]
  obtain ⟨e00, e01, e10, e11, e20, e21⟩ := idx_facts0 t
  have hw0 : (iblk0 V c 0 t : S10000x128.Idx → Ideal .f32) = (V c main_v0 : S10000x128.Idx → Ideal .f32) := by
    funext y
    show V c main_v0 (((cfg0.win 0).blk t).view.emb y) = V c main_v0 y
    refine congrArg (V c main_v0) ?_
    funext a; apply Fin.ext
    match a with
    | ⟨0, _⟩ => show win0_0.index t (0 : Fin 2) * 10000 + 1 * (y 0).val = (y 0).val; omega
    | ⟨1, _⟩ => show win0_0.index t (1 : Fin 2) * 128 + 1 * (y 1).val = (y 1).val; omega
  have hw1 : (iblk0 V c 1 t : S128x64.Idx → Ideal .f32) = (V c main_arg3 : S128x64.Idx → Ideal .f32) := by
    funext y
    show V c main_arg3 (((cfg0.win 1).blk t).view.emb y) = V c main_arg3 y
    refine congrArg (V c main_arg3) ?_
    funext a; apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega
  funext j
  show pass1 (iblk0 V c 0 t) (iblk0 V c 1 t) j = pass1 (V c main_v0) (V c main_arg3) (((cfg0.win 2).blk t).view.emb j)
  have hj : ((cfg0.win 2).blk t).view.emb j = j := by
    funext a; apply Fin.ext
    match a with
    | ⟨0, _⟩ => show win0_2.index t (0 : Fin 2) * 10000 + 1 * (j 0).val = (j 0).val; omega
    | ⟨1, _⟩ => show win0_2.index t (1 : Fin 2) * 64 + 1 * (j 1).val = (j 1).val; omega
  rw [hj, hw0, hw1]

theorem mem_blk0 (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v7).slice (win0_2.rect t)).set ↔ _
  rw [View.set_slice_whole, Rect.mem_set_unit]
  exact Iff.rfl

/-- The one block is the whole result array. -/
theorem cover0 (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨e00, e01, e10, e11, e20, e21⟩ := idx_facts0 t0_0
  refine ⟨t0_0, flush0_2 t0_0, ?_⟩
  rw [mem_blk0]
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 64 ≤ (i 1).val ∧ (i 1).val < win0_2.index t0_0 (1 : Fin 2) * 64 + 64; omega

/-- After the first pass its result array is the product of the arrays it found. -/
theorem final0 (c : Dev nD) : (dat0 V c).arrAt 2 cfg0.N = pass1 (V c main_v0) (V c main_arg3) :=
  (dat0 V c).arrAt_eq_of_cover 2 _ (fun t _ => flushed0_eq V c t) cover0

/-! ## The second pass: 25 blocks of 400 rows -/

/-- The adjacency window and the result window move together down the rows; the other windows stay at block index
    zero; the result's block index is the point's number. -/
theorem idx_facts1 : ∀ t : Fin cfg1.N, win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every block of rows is some point's. -/
theorem idx_onto1 : ∀ q : Fin 25, ∃ t : Fin cfg1.N, win1_4.index t (0 : Fin 2) = q.val :=
  (by decide +kernel : ∀ q : Fin 25, ∃ t : Fin grid1.N, win1_4.index t (0 : Fin 2) = q.val)

/-- What point t writes back is block t of the second pass of the whole arrays. -/
theorem flushed1_eq (c : Dev nD) (t : Fin cfg1.N) :
    (dat1 V c).flushed 4 t
      = ((cfg1.win 4).blk t).view.read (Elt Ideal) (pass2 (V c main_v1) (V c main_v7) (V c main_v3) (V c main_arg5)) := by
  show (cfg1.win 4).cut (grid1.coords t) ((dat1 V c).after 4 t) = _
  rw [after1_4]
  unfold out1_4
  rw [View.canon_unit_zero hz2]
  simp only [View.ld_unit_zero (S := S400x10000) hz2, View.ld_unit_zero (S := S10000x64) hz2,
    View.ld_unit_zero (S := S1x64) hz2, View.ld_unit_zero (S := S64x64) hz2]
  rw [pay_pass2]
  obtain ⟨e00, e01, e10, e11, e20, e21, e30, e31, e41, e4b⟩ := idx_facts1 t
  have hw1 : (iblk1 V c 1 t : S10000x64.Idx → Ideal .f32) = (V c main_v7 : S10000x64.Idx → Ideal .f32) := by
    funext y
    show V c main_v7 (((cfg1.win 1).blk t).view.emb y) = V c main_v7 y
    refine congrArg (V c main_v7) ?_
    funext a; apply Fin.ext
    match a with
    | ⟨0, _⟩ => show win1_1.index t (0 : Fin 2) * 10000 + 1 * (y 0).val = (y 0).val; omega
    | ⟨1, _⟩ => show win1_1.index t (1 : Fin 2) * 64 + 1 * (y 1).val = (y 1).val; omega
  have hw2 : (iblk1 V c 2 t : S1x64.Idx → Ideal .f32) = (V c main_v3 : S1x64.Idx → Ideal .f32) := by
    funext y
    show V c main_v3 (((cfg1.win 2).blk t).view.emb y) = V c main_v3 y
    refine congrArg (V c main_v3) ?_
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  have hw3 : (iblk1 V c 3 t : S64x64.Idx → Ideal .f32) = (V c main_arg5 : S64x64.Idx → Ideal .f32) := by
    funext y
    show V c main_arg5 (((cfg1.win 3).blk t).view.emb y) = V c main_arg5 y
    refine congrArg (V c main_arg5) ?_
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  funext j
  obtain ⟨p, q, rfl⟩ : ∃ (p : Fin 400) (q : Fin 64), j = ix2 p q := ⟨j 0, j 1, eq_ix2 j⟩
  show pass2 (iblk1 V c 0 t) (iblk1 V c 1 t) (iblk1 V c 2 t) (iblk1 V c 3 t) (ix2 p q)
    = pass2 (V c main_v1) (V c main_v7) (V c main_v3) (V c main_arg5) (((cfg1.win 4).blk t).view.emb (ix2 p q))
  have hp : p.val < 400 := p.isLt
  have hP : win1_4.index t (0 : Fin 2) * 400 + p.val < 10000 := by omega
  have hj : ((cfg1.win 4).blk t).view.emb (ix2 p q) = ix2 (⟨win1_4.index t (0 : Fin 2) * 400 + p.val, hP⟩ : Fin 10000) q := by
    funext a; apply Fin.ext
    match a with
    | ⟨0, _⟩ => show win1_4.index t (0 : Fin 2) * 400 + 1 * p.val = win1_4.index t (0 : Fin 2) * 400 + p.val; omega
    | ⟨1, _⟩ => show win1_4.index t (1 : Fin 2) * 64 + 1 * q.val = q.val; omega
  have hrow : RowEq (iblk1 V c 0 t : Mat 400 10000) (V c main_v1 : Mat 10000 10000) p ⟨win1_4.index t (0 : Fin 2) * 400 + p.val, hP⟩ := fun k => by
    show V c main_v1 (((cfg1.win 0).blk t).view.emb (ix2 p k)) = V c main_v1 (ix2 (⟨win1_4.index t (0 : Fin 2) * 400 + p.val, hP⟩ : Fin 10000) k)
    refine congrArg (V c main_v1) ?_
    funext a; apply Fin.ext
    match a with
    | ⟨0, _⟩ => show win1_0.index t (0 : Fin 2) * 400 + 1 * p.val = win1_4.index t (0 : Fin 2) * 400 + p.val; omega
    | ⟨1, _⟩ => show win1_0.index t (1 : Fin 2) * 10000 + 1 * k.val = k.val; omega
  rw [hj, hw1, hw2, hw3]
  exact pass2_rows hrow _ _ _ q

theorem mem_blk1 (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v8).slice (win1_4.rect t)).set ↔ _
  rw [View.set_slice_whole, Rect.mem_set_unit]
  exact Iff.rfl

/-- Row r of the result array is in the block of point r / 400. -/
theorem cover1 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ := idx_onto1 ⟨(i 0).val / 400, by omega⟩
  have ht' : win1_4.index t (0 : Fin 2) = (i 0).val / 400 := ht
  obtain ⟨e00, e01, e10, e11, e20, e21, e30, e31, e41, e4b⟩ := idx_facts1 t
  refine ⟨t, flush1_4 t, ?_⟩
  rw [mem_blk1]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- After the second pass its result array is the second pass of the arrays it found. -/
theorem final1 (c : Dev nD) :
    (dat1 V c).arrAt 4 cfg1.N = pass2 (V c main_v1) (V c main_v7) (V c main_v3) (V c main_arg5) :=
  (dat1 V c).arrAt_eq_of_cover 4 _ (fun t _ => flushed1_eq V c t) cover1

/-! ## The third pass: 25 blocks of 400 rows, the mask column blocked with them -/

theorem idx_facts2 : ∀ t : Fin cfg2.N, win2_0.index t (0 : Fin 2) = win2_8.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = win2_8.index t (0 : Fin 2) ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (1 : Fin 2) = 0 ∧ win2_8.index t (0 : Fin 2) ≤ 24 :=
  (by decide +kernel : ∀ t : Fin grid2.N, _)

theorem idx_onto2 : ∀ q : Fin 25, ∃ t : Fin cfg2.N, win2_8.index t (0 : Fin 2) = q.val :=
  (by decide +kernel : ∀ q : Fin 25, ∃ t : Fin grid2.N, win2_8.index t (0 : Fin 2) = q.val)

/-- What point t writes back is block t of the third pass of the whole arrays. -/
theorem flushed2_eq (c : Dev nD) (t : Fin cfg2.N) :
    (dat2 V c).flushed 8 t
      = ((cfg2.win 8).blk t).view.read (Elt Ideal) (pass3 (V c main_v1) (V c main_v8) (V c main_v4) (V c main_v2)
          (V c main_arg7) (V c main_v5) (V c main_arg9) (V c main_v6)) := by
  show (cfg2.win 8).cut (grid2.coords t) ((dat2 V c).after 8 t) = _
  rw [after2_8]
  unfold out2_8
  rw [View.canon_unit_zero hz2]
  simp only [View.ld_unit_zero (S := S400x10000) hz2, View.ld_unit_zero (S := S10000x64) hz2,
    View.ld_unit_zero (S := S1x64) hz2, View.ld_unit_zero (S := S400x1) hz2, View.ld_unit_zero (S := S64x128) hz2,
    View.ld_unit_zero (S := S1x128) hz2, View.ld_unit_zero (S := S128x12) hz2, View.ld_unit_zero (S := S1x12) hz2]
  rw [pay_pass3]
  obtain ⟨e00, e01, e10, e11, e20, e21, e30, e31, e40, e41, e50, e51, e60, e61, e70, e71, e81, e8b⟩ := idx_facts2 t
  have hw1 : (iblk2 V c 1 t : S10000x64.Idx → Ideal .f32) = (V c main_v8 : S10000x64.Idx → Ideal .f32) := by
    funext y
    show V c main_v8 (((cfg2.win 1).blk t).view.emb y) = V c main_v8 y
    refine congrArg (V c main_v8) ?_
    funext a; apply Fin.ext
    match a with
    | ⟨0, _⟩ => show win2_1.index t (0 : Fin 2) * 10000 + 1 * (y 0).val = (y 0).val; omega
    | ⟨1, _⟩ => show win2_1.index t (1 : Fin 2) * 64 + 1 * (y 1).val = (y 1).val; omega
  have hw2 : (iblk2 V c 2 t : S1x64.Idx → Ideal .f32) = (V c main_v4 : S1x64.Idx → Ideal .f32) := by
    funext y
    show V c main_v4 (((cfg2.win 2).blk t).view.emb y) = V c main_v4 y
    refine congrArg (V c main_v4) ?_
    funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega
  have hw4 : (iblk2 V c 4 t : S64x128.Idx → Ideal .f32) = (V c main_arg7 : S64x128.Idx → Ideal .f32) := by
    funext y
    show V c main_arg7 (((cfg2.win 4).blk t).view.emb y) = V c main_arg7 y
    refine congrArg (V c main_arg7) ?_
    funext a; apply Fin.ext
    match a with
    | ⟨0, _⟩ => show win2_4.index t (0 : Fin 2) * 64 + 1 * (y 0).val = (y 0).val; omega
    | ⟨1, _⟩ => show win2_4.index t (1 : Fin 2) * 128 + 1 * (y 1).val = (y 1).val; omega
  have hw5 : (iblk2 V c 5 t : S1x128.Idx → Ideal .f32) = (V c main_v5 : S1x128.Idx → Ideal .f32) := by
    funext y
    show V c main_v5 (((cfg2.win 5).blk t).view.emb y) = V c main_v5 y
    refine congrArg (V c main_v5) ?_
    funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega
  have hw6 : (iblk2 V c 6 t : S128x12.Idx → Ideal .f32) = (V c main_arg9 : S128x12.Idx → Ideal .f32) := by
    funext y
    show V c main_arg9 (((cfg2.win 6).blk t).view.emb y) = V c main_arg9 y
    refine congrArg (V c main_arg9) ?_
    funext a; apply Fin.ext
    match a with
    | ⟨0, _⟩ => show win2_6.index t (0 : Fin 2) * 128 + 1 * (y 0).val = (y 0).val; omega
    | ⟨1, _⟩ => show win2_6.index t (1 : Fin 2) * 12 + 1 * (y 1).val = (y 1).val; omega
  have hw7 : (iblk2 V c 7 t : S1x12.Idx → Ideal .f32) = (V c main_v6 : S1x12.Idx → Ideal .f32) := by
    funext y
    show V c main_v6 (((cfg2.win 7).blk t).view.emb y) = V c main_v6 y
    refine congrArg (V c main_v6) ?_
    funext a; apply Fin.ext
    match a with
    | ⟨0, _⟩ => show win2_7.index t (0 : Fin 2) * 1 + 1 * (y 0).val = (y 0).val; omega
    | ⟨1, _⟩ => show win2_7.index t (1 : Fin 2) * 12 + 1 * (y 1).val = (y 1).val; omega
  funext j
  obtain ⟨p, q, rfl⟩ : ∃ (p : Fin 400) (q : Fin 12), j = ix2 p q := ⟨j 0, j 1, eq_ix2 j⟩
  show pass3 (iblk2 V c 0 t) (iblk2 V c 1 t) (iblk2 V c 2 t) (iblk2 V c 3 t) (iblk2 V c 4 t) (iblk2 V c 5 t) (iblk2 V c 6 t) (iblk2 V c 7 t) (ix2 p q)
    = pass3 (V c main_v1) (V c main_v8) (V c main_v4) (V c main_v2) (V c main_arg7) (V c main_v5) (V c main_arg9) (V c main_v6)
        (((cfg2.win 8).blk t).view.emb (ix2 p q))
  have hp : p.val < 400 := p.isLt
  have hP : win2_8.index t (0 : Fin 2) * 400 + p.val < 10000 := by omega
  have hj : ((cfg2.win 8).blk t).view.emb (ix2 p q) = ix2 (⟨win2_8.index t (0 : Fin 2) * 400 + p.val, hP⟩ : Fin 10000) q := by
    funext a; apply Fin.ext
    match a with
    | ⟨0, _⟩ => show win2_8.index t (0 : Fin 2) * 400 + 1 * p.val = win2_8.index t (0 : Fin 2) * 400 + p.val; omega
    | ⟨1, _⟩ => show win2_8.index t (1 : Fin 2) * 12 + 1 * q.val = q.val; omega
  have hrow : RowEq (iblk2 V c 0 t : Mat 400 10000) (V c main_v1 : Mat 10000 10000) p ⟨win2_8.index t (0 : Fin 2) * 400 + p.val, hP⟩ := fun k => by
    show V c main_v1 (((cfg2.win 0).blk t).view.emb (ix2 p k)) = V c main_v1 (ix2 (⟨win2_8.index t (0 : Fin 2) * 400 + p.val, hP⟩ : Fin 10000) k)
    refine congrArg (V c main_v1) ?_
    funext a; apply Fin.ext
    match a with
    | ⟨0, _⟩ => show win2_0.index t (0 : Fin 2) * 400 + 1 * p.val = win2_8.index t (0 : Fin 2) * 400 + p.val; omega
    | ⟨1, _⟩ => show win2_0.index t (1 : Fin 2) * 10000 + 1 * k.val = k.val; omega
  have hmask : (iblk2 V c 3 t : Mat 400 1) (ix2 p (0 : Fin 1))
      = (V c main_v2 : Mat 10000 1) (ix2 (⟨win2_8.index t (0 : Fin 2) * 400 + p.val, hP⟩ : Fin 10000) (0 : Fin 1)) := by
    show V c main_v2 (((cfg2.win 3).blk t).view.emb (ix2 p (0 : Fin 1))) = V c main_v2 (ix2 (⟨win2_8.index t (0 : Fin 2) * 400 + p.val, hP⟩ : Fin 10000) (0 : Fin 1))
    refine congrArg (V c main_v2) ?_
    funext a; apply Fin.ext
    match a with
    | ⟨0, _⟩ => show win2_3.index t (0 : Fin 2) * 400 + 1 * p.val = win2_8.index t (0 : Fin 2) * 400 + p.val; omega
    | ⟨1, _⟩ => show win2_3.index t (1 : Fin 2) * 1 + 1 * 0 = 0; omega
  rw [hj, hw1, hw2, hw4, hw5, hw6, hw7]
  exact pass3_rows hrow hmask _ _ _ _ _ _ q

theorem mem_blk2 (t : Fin cfg2.N) (i : S10000x12.Idx) :
    i ∈ ((cfg2.win 8).blk t).view.set ↔ ∀ a : Fin 2, win2_8.index t a * S400x12.size a ≤ (i a).val ∧ (i a).val < win2_8.index t a * S400x12.size a + S400x12.size a := by
  show i ∈ ((View.whole main_v9).slice (win2_8.rect t)).set ↔ _
  rw [View.set_slice_whole, Rect.mem_set_unit]
  exact Iff.rfl

theorem cover2 (i : S10000x12.Idx) : ∃ t : Fin cfg2.N, (cfg2.win 8).flush t = true ∧ i ∈ ((cfg2.win 8).blk t).view.set := by
  have hi0 : (i 0).val < 10000 := (i 0).isLt
  have hi1 : (i 1).val < 12 := (i 1).isLt
  obtain ⟨t, ht⟩ := idx_onto2 ⟨(i 0).val / 400, by omega⟩
  have ht' : win2_8.index t (0 : Fin 2) = (i 0).val / 400 := ht
  obtain ⟨e00, e01, e10, e11, e20, e21, e30, e31, e40, e41, e50, e51, e60, e61, e70, e71, e81, e8b⟩ := idx_facts2 t
  refine ⟨t, flush2_8 t, ?_⟩
  rw [mem_blk2]
  intro a
  match a with
  | ⟨0, _⟩ => show win2_8.index t (0 : Fin 2) * 400 ≤ (i 0).val ∧ (i 0).val < win2_8.index t (0 : Fin 2) * 400 + 400; omega
  | ⟨1, _⟩ => show win2_8.index t (1 : Fin 2) * 12 ≤ (i 1).val ∧ (i 1).val < win2_8.index t (1 : Fin 2) * 12 + 12; omega

/-- After the third pass its result array is the third pass of the arrays it found. -/
theorem final2 (c : Dev nD) :
    (dat2 V c).arrAt 8 cfg2.N = pass3 (V c main_v1) (V c main_v8) (V c main_v4) (V c main_v2) (V c main_arg7) (V c main_v5)
      (V c main_arg9) (V c main_v6) :=
  (dat2 V c).arrAt_eq_of_cover 8 _ (fun t _ => flushed2_eq V c t) cover2

end Cert.KernelIdeal.Passes

end
-- ==== Proof.Bridge.lean ====
/-
  The result array of the whole program as one function of the arguments.

  The third pass's result is the third pass of the arrays it found; of those, the middle array is the second pass's
  result, which is the second pass of the arrays it found, whose middle array is the first pass's product. Every other
  operand walks back to an argument recast by a host operation (the node features and the adjacency with their unit
  axis dropped, the bias vectors as rows, the mask read as numbers) or to an argument itself. Substituting, the result
  is the three passes chained on the recast arguments, which is the network with its rows selected by the mask.
-/
import proofs.«159026_g24206435680387_cont_sun_c4_295_2_alg».proof.Proof.PassRun
import proofs.«159026_g24206435680387_cont_sun_c4_295_2_alg».proof.Proof.Passes

set_option maxRecDepth 16384

noncomputable section

namespace Cert.KernelIdeal.Bridge

open Cert.KernelIdeal Cert.KernelIdeal.Gen Cert.KernelIdeal.PassRun Cert.KernelIdeal.Passes
open Idealize.ShloMosaic Idealize.ShloMosaic.TcCoe Idealize.SL.Sem
open Idealize.ShloMosaic.ValueIdx Cert.RowLocal Cert.GcnPasses

variable (m : (ℓ : Loc nD τ sig) → Buf (Elt Ideal) ℓ) (ρ : Dev nD → PrngReg)

/-- After the first pass: the product of the node features and the first weights. -/
theorem first_eq (c : Dev nD) : (dat0 (V1 m ρ) c).arrAt 2 cfg0.N = pass1 (shapeCast S10000x128 (m ((c.tc : Thread nD τ).loc main_arg0)) shapeCasts_S1x10000x128_S10000x128) (m ((c.tc : Thread nD τ).loc main_arg3)) := by
  rw [final0, V1_v0, V1_arg3]

/-- After the second pass: the second pass of the adjacency and the first pass's product. -/
theorem second_eq (c : Dev nD) : (dat1 (V2 m ρ) c).arrAt 4 cfg1.N = pass2 (shapeCast S10000x10000 (m ((c.tc : Thread nD τ).loc main_arg1)) shapeCasts_S1x10000x10000_S10000x10000) (pass1 (shapeCast S10000x128 (m ((c.tc : Thread nD τ).loc main_arg0)) shapeCasts_S1x10000x128_S10000x128) (m ((c.tc : Thread nD τ).loc main_arg3))) (shapeCast S1x64 (m ((c.tc : Thread nD τ).loc main_arg4)) shapeCasts_S64_S1x64) (m ((c.tc : Thread nD τ).loc main_arg5)) := by
  rw [final1, V2_v1, V1_v1, V2_v7, first_eq, V2_v3, V1_v3, V2_arg5, V1_arg5]

/-- The result array: the third pass of the adjacency and the second pass's result. -/
theorem third_eq (c : Dev nD) : W4 m ρ c (Proc.devRef .tc main_v9)
    = pass3 (shapeCast S10000x10000 (m ((c.tc : Thread nD τ).loc main_arg1)) shapeCasts_S1x10000x10000_S10000x10000) (pass2 (shapeCast S10000x10000 (m ((c.tc : Thread nD τ).loc main_arg1)) shapeCasts_S1x10000x10000_S10000x10000) (pass1 (shapeCast S10000x128 (m ((c.tc : Thread nD τ).loc main_arg0)) shapeCasts_S1x10000x128_S10000x128) (m ((c.tc : Thread nD τ).loc main_arg3))) (shapeCast S1x64 (m ((c.tc : Thread nD τ).loc main_arg4)) shapeCasts_S64_S1x64) (m ((c.tc : Thread nD τ).loc main_arg5))) (shapeCast S1x64 (m ((c.tc : Thread nD τ).loc main_arg6)) shapeCasts_S64_S1x64) (uitofp .f32 (m ((c.tc : Thread nD τ).loc main_arg2))) (m ((c.tc : Thread nD τ).loc main_arg7)) (shapeCast S1x128 (m ((c.tc : Thread nD τ).loc main_arg8)) shapeCasts_S128_S1x128) (m ((c.tc : Thread nD τ).loc main_arg9)) (shapeCast S1x12 (m ((c.tc : Thread nD τ).loc main_arg10)) shapeCasts_S12_S1x12) := by
  rw [result_arr, final2, V3_v1, V1_v1, V3_v8, second_eq, V3_v4, V1_v4, V3_v2, V1_v2, V3_arg7, V1_arg7, V3_v5, V1_v5,
    V3_arg9, V1_arg9, V3_v6, V1_v6]

/-- The result array is the network of the recast arguments. -/
theorem result_netOut (c : Dev nD) : W4 m ρ c (Proc.devRef .tc main_v9)
    = netOut (shapeCast S10000x128 (m ((c.tc : Thread nD τ).loc main_arg0)) shapeCasts_S1x10000x128_S10000x128) (shapeCast S10000x10000 (m ((c.tc : Thread nD τ).loc main_arg1)) shapeCasts_S1x10000x10000_S10000x10000) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)) := by
  rw [third_eq, shapeCast_rowOf (N := 64) (m ((c.tc : Thread nD τ).loc main_arg4)) shapeCasts_S64_S1x64,
    shapeCast_rowOf (N := 64) (m ((c.tc : Thread nD τ).loc main_arg6)) shapeCasts_S64_S1x64,
    shapeCast_rowOf (N := 128) (m ((c.tc : Thread nD τ).loc main_arg8)) shapeCasts_S128_S1x128,
    shapeCast_rowOf (N := 12) (m ((c.tc : Thread nD τ).loc main_arg10)) shapeCasts_S12_S1x12]
  exact passes_eq_netOut _ _ _ _ _ _ _ _ _ _ _

end Cert.KernelIdeal.Bridge

end
-- ==== Proof.RefNet.lean ====
/-
  The reference program, stage by stage, in the same combinators as the passes.

  The reference computes on whole arrays: a product, a second product with the adjacency, a bias vector laid out as a
  row and broadcast down the rows, a maximum with a broadcast zero; the same again for the second layer; a selection of
  the rows by the mask against zero; the dense relu layer; the output layer; and the row softmax (largest entry of each
  row by a reduce from minus infinity, exponentials of the differences, their sum by a reduce from zero, the quotient).
  Each stage is the combinator of the same name applied to the stage before it, so the result is netOut of the recast
  arguments.
-/
import proofs.«159026_g24206435680387_cont_sun_c4_295_2_alg».proof.Proof.Gen.ReferenceIdeal.Read
import proofs.«159026_g24206435680387_cont_sun_c4_295_2_alg».proof.Proof.PassSpec

noncomputable section

namespace Cert.ReferenceIdeal.RefNet

open Cert.ReferenceIdeal Cert.ReferenceIdeal.Gen Cert.ReferenceIdeal.Read Idealize.ShloMosaic Idealize.ShloMosaic.TcCoe Idealize.SL.Sem
open Idealize.ShloMosaic.ValueIdx Cert.RowLocal Cert.GcnPasses

/-! ## The five contractions' dimension numbers are those of plain products -/

theorem pd_xw1 : PlainDot (M := 10000) (K := 128) (N := 64) dot_S10000x128_S128x64_S10000x64_1_0_0_1_n_n where
  rank := rfl
  size := rfl
  l0 := fun j q => by
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  l1 := fun j q => dot_S10000x128_S128x64_S10000x64_1_0_0_1_n_n.lhsIdx_val_of_single rfl j q
  r0 := fun j q => dot_S10000x128_S128x64_S10000x64_1_0_0_1_n_n.rhsIdx_val_of_single rfl j q
  r1 := fun j q => by
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

theorem pd_au : PlainDot (M := 10000) (K := 10000) (N := 64) dot_S10000x10000_S10000x64_S10000x64_1_0_0_1_n_n where
  rank := rfl
  size := rfl
  l0 := fun j q => by
    unfold DotDims.lhsIdx
    rw [dif_neg (show ¬(0 : Fin S10000x10000.rank) ∈ dot_S10000x10000_S10000x64_S10000x64_1_0_0_1_n_n.lhsBatch by decide), dif_pos (show (0 : Fin S10000x10000.rank) ∈ dot_S10000x10000_S10000x64_S10000x64_1_0_0_1_n_n.lhsNonContracting by decide)]
    rfl
  l1 := fun j q => dot_S10000x10000_S10000x64_S10000x64_1_0_0_1_n_n.lhsIdx_val_of_single rfl j q
  r0 := fun j q => dot_S10000x10000_S10000x64_S10000x64_1_0_0_1_n_n.rhsIdx_val_of_single rfl j q
  r1 := fun j q => by
    unfold DotDims.rhsIdx
    rw [dif_neg (show ¬(1 : Fin S10000x64.rank) ∈ dot_S10000x10000_S10000x64_S10000x64_1_0_0_1_n_n.rhsBatch by decide), dif_pos (show (1 : Fin S10000x64.rank) ∈ dot_S10000x10000_S10000x64_S10000x64_1_0_0_1_n_n.rhsNonContracting by decide)]
    rfl

theorem pd_w2 : PlainDot (M := 10000) (K := 64) (N := 64) dot_S10000x64_S64x64_S10000x64_1_0_0_1_n_n where
  rank := rfl
  size := rfl
  l0 := fun j q => by
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  l1 := fun j q => dot_S10000x64_S64x64_S10000x64_1_0_0_1_n_n.lhsIdx_val_of_single rfl j q
  r0 := fun j q => dot_S10000x64_S64x64_S10000x64_1_0_0_1_n_n.rhsIdx_val_of_single rfl j q
  r1 := fun j q => by
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl

theorem pd_wd : PlainDot (M := 10000) (K := 64) (N := 128) dot_S10000x64_S64x128_S10000x128_1_0_0_1_n_n where
  rank := rfl
  size := rfl
  l0 := fun j q => by
    unfold DotDims.lhsIdx
    rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
    rfl
  l1 := fun j q => dot_S10000x64_S64x128_S10000x128_1_0_0_1_n_n.lhsIdx_val_of_single rfl j q
  r0 := fun j q => dot_S10000x64_S64x128_S10000x128_1_0_0_1_n_n.rhsIdx_val_of_single rfl j q
  r1 := fun j q => by
    unfold DotDims.rhsIdx
    rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
    rfl

theorem pd_wo : PlainDot (M := 10000) (K := 128) (N := 12) dot_S10000x128_S128x12_S10000x12_1_0_0_1_n_n where
  rank := rfl
  size := rfl
  l0 := fun j q => by
    unfold DotDims.lhsIdx
    rw [dif_neg (show ¬(0 : Fin S10000x128.rank) ∈ dot_S10000x128_S128x12_S10000x12_1_0_0_1_n_n.lhsBatch by decide), dif_pos (show (0 : Fin S10000x128.rank) ∈ dot_S10000x128_S128x12_S10000x12_1_0_0_1_n_n.lhsNonContracting by decide)]
    rfl
  l1 := fun j q => dot_S10000x128_S128x12_S10000x12_1_0_0_1_n_n.lhsIdx_val_of_single rfl j q
  r0 := fun j q => dot_S10000x128_S128x12_S10000x12_1_0_0_1_n_n.rhsIdx_val_of_single rfl j q
  r1 := fun j q => by
    unfold DotDims.rhsIdx
    rw [dif_neg (show ¬(1 : Fin S128x12.rank) ∈ dot_S10000x128_S128x12_S10000x12_1_0_0_1_n_n.rhsBatch by decide), dif_pos (show (1 : Fin S128x12.rank) ∈ dot_S10000x128_S128x12_S10000x12_1_0_0_1_n_n.rhsNonContracting by decide)]
    rfl

variable (x0 : (⟨S1x10000x128, .f32⟩ : BufTy).Contents (Elt Ideal)) (x1 : (⟨S1x10000x10000, .f32⟩ : BufTy).Contents (Elt Ideal))
  (x2 : (⟨S10000x1, .i1⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x128, .f32⟩ : BufTy).Contents (Elt Ideal))
  (x8 : (⟨S128, .f32⟩ : BufTy).Contents (Elt Ideal)) (x9 : (⟨S128x12, .f32⟩ : BufTy).Contents (Elt Ideal))
  (x10 : (⟨S12, .f32⟩ : BufTy).Contents (Elt Ideal))

/-- The first layer's feature transform. -/
theorem stage_v2 : val_main_v2 (F := Ideal) x0 x3 = mm (val_main_v0 (F := Ideal) x0) x3 := by
  unfold val_main_v2
  exact host_mm pd_xw1 none _ _

/-- The first layer: neighbour sum, bias, relu. -/
theorem stage_v7 : val_main_v7 (F := Ideal) x0 x1 x3 x4
    = relu (biasAdd (mm (val_main_v1 (F := Ideal) x1) (val_main_v2 (F := Ideal) x0 x3)) (rowOf x4)) := by
  unfold val_main_v7 val_main_v6 val_main_v5 val_main_v4 val_main_v3 val_main_call0_v0 val_main_call0_cst
  rw [host_mm pd_au none, host_biasAdd, host_relu]

/-- The second layer's feature transform. -/
theorem stage_v8 : val_main_v8 (F := Ideal) x0 x1 x3 x4 x5 = mm (val_main_v7 (F := Ideal) x0 x1 x3 x4) x5 := by
  unfold val_main_v8
  exact host_mm pd_w2 none _ _

/-- The second layer: neighbour sum, bias, relu. -/
theorem stage_v13 : val_main_v13 (F := Ideal) x0 x1 x3 x4 x5 x6
    = relu (biasAdd (mm (val_main_v1 (F := Ideal) x1) (val_main_v8 (F := Ideal) x0 x1 x3 x4 x5)) (rowOf x6)) := by
  unfold val_main_v13 val_main_v12 val_main_v11 val_main_v10 val_main_v9 val_main_call1_v0 val_main_call1_cst
  rw [host_mm pd_au none, host_biasAdd, host_relu]

/-- The rows selected by the mask. -/
theorem stage_v16 : val_main_v16 (F := Ideal) x0 x1 x2 x3 x4 x5 x6 = rowSelect x2 (val_main_v13 (F := Ideal) x0 x1 x3 x4 x5 x6) := by
  unfold val_main_v16 val_main_call2_v1 val_main_call2_v2 val_main_call2_v0 val_main_cst val_main_v15 val_main_v14
  exact host_rowSelect x2 _ _ _ _ _

/-- The dense relu layer. -/
theorem stage_v21 : val_main_v21 (F := Ideal) x0 x1 x2 x3 x4 x5 x6 x7 x8
    = relu (biasAdd (mm (val_main_v16 (F := Ideal) x0 x1 x2 x3 x4 x5 x6) x7) (rowOf x8)) := by
  unfold val_main_v21 val_main_v20 val_main_v19 val_main_v18 val_main_v17 val_main_call3_v0 val_main_call3_cst
  rw [host_mm pd_wd none, host_biasAdd, host_relu]

/-- The output layer's logits. -/
theorem stage_v25 : val_main_v25 (F := Ideal) x0 x1 x2 x3 x4 x5 x6 x7 x8 x9 x10
    = biasAdd (mm (val_main_v21 (F := Ideal) x0 x1 x2 x3 x4 x5 x6 x7 x8) x9) (rowOf x10) := by
  unfold val_main_v25 val_main_v24 val_main_v23 val_main_v22
  rw [host_mm pd_wo none, host_biasAdd]

/-- The row softmax of the logits. -/
theorem stage_v36 : val_main_v36 (F := Ideal) x0 x1 x2 x3 x4 x5 x6 x7 x8 x9 x10
    = softmaxRows 0xFF800000#32 (val_main_v25 (F := Ideal) x0 x1 x2 x3 x4 x5 x6 x7 x8 x9 x10) := by
  unfold val_main_v36 val_main_v35 val_main_v34 val_main_v33 val_main_v32 val_main_v31 val_main_v30 val_main_v29 val_main_v28
    val_main_v27 val_main_v26 val_main_cst_0 val_main_cst_1 val_main_cst_2 softmaxRows
  generalize val_main_v25 (F := Ideal) x0 x1 x2 x3 x4 x5 x6 x7 x8 x9 x10 = l
  rw [host_expShift 0xFF800000#32 l reducesTo_S10000x12_S10000_d1 (by decide) h_S_,
    host_normRows _ reducesTo_S10000x12_S10000_d1 (by decide) h_S_]

/-- The reference's result is the network of the recast arguments. -/
theorem ref_eq_netOut : val_main_v36 (F := Ideal) x0 x1 x2 x3 x4 x5 x6 x7 x8 x9 x10
    = netOut (val_main_v0 (F := Ideal) x0) (val_main_v1 (F := Ideal) x1) x2 x3 x4 x5 x6 x7 x8 x9 x10 := by
  rw [stage_v36, stage_v25, stage_v21, stage_v16, stage_v13, stage_v8, stage_v7, stage_v2]
  rfl

end Cert.ReferenceIdeal.RefNet

end
-- ==== Proof.lean ====
/-
  A two-layer graph convolution over a dense 10000 x 10000 adjacency with a dense softmax head, computed in three
  passes over blocks of 400 node rows, against the same network computed on whole arrays.

  With X the node features, A the adjacency, n the node mask and the layers' weights and biases, both programs compute

      softmax over each row of  relu ((the rows of relu (A (relu (A (X W1) + b1) W2) + b2) that n keeps) Wd + bd) Wo + bo.

  The blocked program forms u1 = X W1 in one pass, u2 = relu (A u1 + b1) W2 in a second pass over A in blocks of 400
  rows, and the output in a third such pass; it keeps the masked rows by multiplying by the mask read as 1 or 0, where
  the whole-array program selects against zero. On the extended reals these agree entry by entry with no condition on
  the inputs: x * 1 = x and x * 0 = 0 at the infinities too, the products are the same finite sums, the two softmaxes the
  same expression of the logits, and a pass over row blocks computes the rows of the whole-array function because each
  pass is row-local in A. So the precondition is never opened.

  The frames of the two blocked programs and the reference's run are the generated ones. The value of the blocked
  program's result is read off its run (PassRun), each pass's result array as a function of the arrays the pass found
  (Passes), chained into the network of the arguments (Bridge); the reference's stages are the same combinators
  (RefNet).
-/
import proofs.«159026_g24206435680387_cont_sun_c4_295_2_alg».proof.Defs
import proofs.«159026_g24206435680387_cont_sun_c4_295_2_alg».proof.Proof.Gen.Kernel
import proofs.«159026_g24206435680387_cont_sun_c4_295_2_alg».proof.Proof.Gen.Kernel.Skeleton
import proofs.«159026_g24206435680387_cont_sun_c4_295_2_alg».proof.Proof.Gen.Kernel.Launch
import proofs.«159026_g24206435680387_cont_sun_c4_295_2_alg».proof.Proof.Gen.Kernel.Points
import proofs.«159026_g24206435680387_cont_sun_c4_295_2_alg».proof.Proof.Gen.Kernel.Frame
import proofs.«159026_g24206435680387_cont_sun_c4_295_2_alg».proof.Proof.Gen.KernelIdeal
import proofs.«159026_g24206435680387_cont_sun_c4_295_2_alg».proof.Proof.Gen.KernelIdeal.Skeleton
import proofs.«159026_g24206435680387_cont_sun_c4_295_2_alg».proof.Proof.Gen.KernelIdeal.Launch
import proofs.«159026_g24206435680387_cont_sun_c4_295_2_alg».proof.Proof.Gen.KernelIdeal.Points
import proofs.«159026_g24206435680387_cont_sun_c4_295_2_alg».proof.Proof.Gen.KernelIdeal.Frame
import proofs.«159026_g24206435680387_cont_sun_c4_295_2_alg».proof.Proof.Gen.ReferenceIdeal
import proofs.«159026_g24206435680387_cont_sun_c4_295_2_alg».proof.Proof.Gen.Pre_finite_inputs
import proofs.«159026_g24206435680387_cont_sun_c4_295_2_alg».proof.Proof.Gen.ReferenceIdeal.Run
import proofs.«159026_g24206435680387_cont_sun_c4_295_2_alg».proof.Proof.Gen.ReferenceIdeal.Read
import proofs.«159026_g24206435680387_cont_sun_c4_295_2_alg».proof.Proof.Bridge
import proofs.«159026_g24206435680387_cont_sun_c4_295_2_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the (recast) arguments in their result arrays. -/
theorem algebraic : Cert.algebraic_KernelIdeal_ReferenceIdeal := by
  intro m ρ m' ρ' _ hagree
  refine ⟨fun c => Cert.GcnPasses.netOut (shapeCast Cert.KernelIdeal.S10000x128 (m ((c.tc : Thread Cert.KernelIdeal.nD Cert.KernelIdeal.τ).loc Cert.KernelIdeal.main_arg0)) Cert.KernelIdeal.Facts₀.shapeCasts_S1x10000x128_S10000x128) (shapeCast Cert.KernelIdeal.S10000x10000 (m ((c.tc : Thread Cert.KernelIdeal.nD Cert.KernelIdeal.τ).loc Cert.KernelIdeal.main_arg1)) Cert.KernelIdeal.Facts₀.shapeCasts_S1x10000x10000_S10000x10000) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Bridge.result_netOut m ρ c), (h c).2⟩)
      (Cert.KernelIdeal.PassRun.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.RefNet.ref_eq_netOut,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
